-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S4096 : Shape := ⟨1, ![4096]⟩
abbrev S128x129 : Shape := ⟨2, ![128, 129]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S262144x128 .f32) (main_arg1 : FVec F S4096 .f32) (main_arg2 : IVec S128x129 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S262144x128 : Shape := ⟨2, ![262144, 128]⟩
abbrev S4096 : Shape := ⟨1, ![4096]⟩
abbrev S128x129 : Shape := ⟨2, ![128, 129]⟩
abbrev S_ : Shape := ⟨0, ![]⟩
abbrev S128x129x1 : Shape := ⟨3, ![128, 129, 1]⟩
abbrev S128x128 : Shape := ⟨2, ![128, 128]⟩
abbrev S128x1 : Shape := ⟨2, ![128, 1]⟩
abbrev S1x128 : Shape := ⟨2, ![1, 128]⟩
abbrev S8192x128 : Shape := ⟨2, ![8192, 128]⟩

abbrev nBuf : Space → Nat
  | .hbm => 16
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S4096, .f32⟩
  | .hbm, ⟨2, _⟩ => ⟨S128x129, .i32⟩
  | .hbm, ⟨3, _⟩ => ⟨S_, .i32⟩
  | .hbm, ⟨4, _⟩ => ⟨S128x129, .i32⟩
  | .hbm, ⟨5, _⟩ => ⟨S128x129, .i1⟩
  | .hbm, ⟨6, _⟩ => ⟨S_, .i32⟩
  | .hbm, ⟨7, _⟩ => ⟨S128x129, .i32⟩
  | .hbm, ⟨8, _⟩ => ⟨S128x129, .i32⟩
  | .hbm, ⟨9, _⟩ => ⟨S128x129, .i32⟩
  | .hbm, ⟨10, _⟩ => ⟨S128x129x1, .i32⟩
  | .hbm, ⟨11, _⟩ => ⟨S128x129, .f32⟩
  | .hbm, ⟨12, _⟩ => ⟨S128x128, .f32⟩
  | .hbm, ⟨13, _⟩ => ⟨S128x1, .f32⟩
  | .hbm, ⟨14, _⟩ => ⟨S1x128, .f32⟩
  | .hbm, ⟨15, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x129 : S_.BroadcastsInDim S128x129 (![] : Fin 0 → Fin S128x129.rank)
  bcast_S128x129_S128x129x1_0_1 : S128x129.BroadcastsInDim S128x129x1 (![0, 1] : Fin 2 → Fin S128x129x1.rank)
  slices_S128x129_S128x128_0_0 : S128x129.Slices ![0, 0] S128x128
  slices_S128x129_S128x1_0_128 : S128x129.Slices ![0, 128] S128x1
  transposes_S128x1_S1x128_1_0 : S128x1.Transposes [1, 0] S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  gather_S4096_S128x129x1_S128x129_n_0_n_n_0_2_1_wf : GatherDims.WF S4096 S128x129x1 S128x129 [] [0] [] [0] [] 2 ![1]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def gather_S4096_S128x129x1_S128x129_n_0_n_n_0_2_1 : GatherDims S4096 S128x129x1 S128x129 where
  offsetDims := []
  collapsedSliceDims := [0]
  operandBatchingDims := []
  startIndicesBatchingDims := []
  startIndexMap := [0]
  indexVectorDim := 2
  sliceSizes := ![1]
  wf := gather_S4096_S128x129x1_S128x129_n_0_n_n_0_2_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S4096 : Shape := ⟨1, ![4096]⟩
abbrev S128x129 : Shape := ⟨2, ![128, 129]⟩
abbrev S_ : Shape := ⟨0, ![]⟩
abbrev S262144x1 : Shape := ⟨2, ![262144, 1]⟩
abbrev S262144x129 : Shape := ⟨2, ![262144, 129]⟩
abbrev S128x129x1 : Shape := ⟨3, ![128, 129, 1]⟩

abbrev nBuf : Space → Nat
  | .hbm => 16
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S4096, .f32⟩
  | .hbm, ⟨2, _⟩ => ⟨S128x129, .i32⟩
  | .hbm, ⟨3, _⟩ => ⟨S_, .f32⟩
  | .hbm, ⟨4, _⟩ => ⟨S262144x1, .f32⟩
  | .hbm, ⟨5, _⟩ => ⟨S262144x129, .f32⟩
  | .hbm, ⟨6, _⟩ => ⟨S_, .i32⟩
  | .hbm, ⟨7, _⟩ => ⟨S128x129, .i32⟩
  | .hbm, ⟨8, _⟩ => ⟨S128x129, .i1⟩
  | .hbm, ⟨9, _⟩ => ⟨S_, .i32⟩
  | .hbm, ⟨10, _⟩ => ⟨S128x129, .i32⟩
  | .hbm, ⟨11, _⟩ => ⟨S128x129, .i32⟩
  | .hbm, ⟨12, _⟩ => ⟨S128x129, .i32⟩
  | .hbm, ⟨13, _⟩ => ⟨S128x129x1, .i32⟩
  | .hbm, ⟨14, _⟩ => ⟨S128x129, .f32⟩
  | .hbm, ⟨15, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S262144x1 : S_.BroadcastsInDim S262144x1 (![] : Fin 0 → Fin S262144x1.rank)
  concatenates_S262144x128_S262144x1_S262144x129_d1 : Shape.Concatenates [S262144x128, S262144x1] S262144x129 1
  bcast_S_S128x129 : S_.BroadcastsInDim S128x129 (![] : Fin 0 → Fin S128x129.rank)
  bcast_S128x129_S128x129x1_0_1 : S128x129.BroadcastsInDim S128x129x1 (![0, 1] : Fin 2 → Fin S128x129x1.rank)
  gather_S4096_S128x129x1_S128x129_n_0_n_n_0_2_1_wf : GatherDims.WF S4096 S128x129x1 S128x129 [] [0] [] [0] [] 2 ![1]
  dot_S262144x129_S128x129_S262144x128_1_1_0_0_n_n_wf : DotDims.WF S262144x129 S128x129 S262144x128 [1] [1] [0] [0] [] []

variable [Facts₀]

def gather_S4096_S128x129x1_S128x129_n_0_n_n_0_2_1 : GatherDims S4096 S128x129x1 S128x129 where
  offsetDims := []
  collapsedSliceDims := [0]
  operandBatchingDims := []
  startIndicesBatchingDims := []
  startIndexMap := [0]
  indexVectorDim := 2
  sliceSizes := ![1]
  wf := gather_S4096_S128x129x1_S128x129_n_0_n_n_0_2_1_wf
def dot_S262144x129_S128x129_S262144x128_1_1_0_0_n_n : DotDims S262144x129 S128x129 S262144x128 where
  lhsContracting := [1]
  rhsContracting := [1]
  lhsNonContracting := [0]
  rhsNonContracting := [0]
  lhsBatch := []
  rhsBatch := []
  wf := dot_S262144x129_S128x129_S262144x128_1_1_0_0_n_n_wf

class Facts : Prop extends Facts₀ where

variable [Facts]
-- ==== Proof.HashedLayer.lean ====
/-
  The hashed layer, entry by entry, over the extended reals.

  Row `i` of the weight table has 129 entries: 128 weights and, last, a bias. One output entry pairs a row of 128
  activations with a row of the table:   entry a w = (∑ k < 128, a k · w k) + w 128.
  A program that appends a column of ones to the activations and contracts all 129 columns computes
  ∑ k < 129, a' k · w k  with  a' k = a k  for  k < 128  and  a' 128 = 1;  splitting the last term off the sum and
  `1 · w 128 = w 128` make it the same number. Both steps hold in any commutative monoid with a unit for the product, so
  on the extended reals they hold at the infinities too: nothing here asks that an input be finite.
-/
import Idealize.ShloMosaic.Lib.ValueIdx
import Idealize.ShloMosaic.PureOps.Ideal

noncomputable section

namespace Cert.HashedLayer

open Idealize.ShloMosaic Idealize.ShloMosaic.ValueIdx

/-- One output entry: a row of 128 activations against a row of the weight table, whose entry 128 is the bias. -/
def entry (arow : Fin 128 → EReal) (wrow : Fin 129 → EReal) : EReal :=
  (∑ k : Fin 128, arow k * wrow k.castSucc) + wrow (Fin.last 128)

/-- The layer over an array of `rows` rows of activations: entry `(p, q)` pairs row `p` of the activations with row `q`
    of the table. -/
def layer {rows : ℕ} (a : (⟨2, ![rows, 128]⟩ : Shape).Idx → EReal) (table : (⟨2, ![128, 129]⟩ : Shape).Idx → EReal) :
    (⟨2, ![rows, 128]⟩ : Shape).Idx → EReal :=
  fun i => entry (fun k => a (ix2 (i 0) k)) (fun k => table (ix2 (i 1) k))

theorem layer_apply {rows : ℕ} (a : (⟨2, ![rows, 128]⟩ : Shape).Idx → EReal)
    (table : (⟨2, ![128, 129]⟩ : Shape).Idx → EReal) (p : Fin rows) (q : Fin 128) :
    layer a table (ix2 p q) = entry (fun k => a (ix2 p k)) (fun k => table (ix2 q k)) := rfl

/-- The activations row extended by a one and contracted over all 129 columns is the entry: the last term of the sum
    is `1 · w 128`, the bias. -/
theorem sum_extended (ext : Fin 129 → EReal) (arow : Fin 128 → EReal) (wrow : Fin 129 → EReal)
    (hleft : ∀ k : Fin 128, ext k.castSucc = arow k) (hlast : ext (Fin.last 128) = 1) :
    ∑ k : Fin 129, ext k * wrow k = entry arow wrow := by
  unfold entry
  rw [Fin.sum_univ_castSucc, hlast, one_mul]
  congr 1
  exact Finset.sum_congr rfl fun k _ => by rw [hleft]

end Cert.HashedLayer

end
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.KernelBlock.lean ====
/-
  What the kernel body computes for one block of 8192 rows, read at an entry.

  The body loads the block `x` of activations (8192 × 128), the weights `w` (128 × 128: row `q` holds the weights of
  output `q`) and the bias row `b` (1 × 128); it narrows `x` and `w` to bf16 — the identity on extended reals —,
  transposes `w`, multiplies into a zero accumulator and adds `b` broadcast down the rows. So entry `(p, q)` is
      (∑ k < 128, x p k · w q k) + b 0 q.
-/
import proofs.«117994_j39487929319938_1_alg».proof.Proof.Gen.KernelIdeal.Skeleton
import proofs.«117994_j39487929319938_1_alg».proof.Proof.LibContract0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The product's dimension numbers: rows of the left operand against columns of the right -/

theorem dot_lhs0 (j : S8192x128.Idx) (k : dot_S8192x128_S128x128_S8192x128_1_0_0_1_n_n.contr.Idx) :
    (dot_S8192x128_S128x128_S8192x128_1_0_0_1_n_n.lhsIdx j k 0).val = (j 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

theorem dot_lhs1 (j : S8192x128.Idx) (k : dot_S8192x128_S128x128_S8192x128_1_0_0_1_n_n.contr.Idx) :
    (dot_S8192x128_S128x128_S8192x128_1_0_0_1_n_n.lhsIdx j k 1).val = (k ⟨0, by decide⟩).val :=
  dot_S8192x128_S128x128_S8192x128_1_0_0_1_n_n.lhsIdx_val_of_single rfl j k

theorem dot_rhs0 (j : S8192x128.Idx) (k : dot_S8192x128_S128x128_S8192x128_1_0_0_1_n_n.contr.Idx) :
    (dot_S8192x128_S128x128_S8192x128_1_0_0_1_n_n.rhsIdx j k 0).val = (k ⟨0, by decide⟩).val :=
  dot_S8192x128_S128x128_S8192x128_1_0_0_1_n_n.rhsIdx_val_of_single rfl j k

theorem dot_rhs1 (j : S8192x128.Idx) (k : dot_S8192x128_S128x128_S8192x128_1_0_0_1_n_n.contr.Idx) :
    (dot_S8192x128_S128x128_S8192x128_1_0_0_1_n_n.rhsIdx j k 1).val = (j 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-! ## The payload at an entry -/

/-- Entry `(p, q)` of the block the body stores: row `p` of the activations against row `q` of the weights, plus the
    bias of output `q`. -/
theorem payload_apply (x : Vec Ideal S8192x128 .f32) (w : Vec Ideal S128x128 .f32) (b : Vec Ideal S1x128 .f32)
    (p : Fin 8192) (q : Fin 128) :
    k0_pay1 (F := Ideal) x w b (ix2 p q) = (∑ k : Fin 128, x (ix2 p k) * w (ix2 q k)) + b (ix2 (0 : Fin 1) q) := by
  unfold k0_pay1
  rw [addf_apply]
  refine congrArg₂ (· + ·) ?_ ?_
  · refine (Cert.Contract0.matmul_rows dot_S8192x128_S128x128_S8192x128_1_0_0_1_n_n rfl rfl
      dot_lhs0 dot_lhs1 dot_rhs0 dot_rhs1 _ _ p q).trans ?_
    refine Finset.sum_congr rfl fun k _ => ?_
    rw [truncf_apply]
    refine congrArg (x (ix2 p k) * ·) ?_
    refine (transpose_ix2_apply _ transposes_S128x128_p1_0_S128x128 k q).trans ?_
    rw [truncf_apply, shapeCast_self]
  · refine (broadcastTo_1b_ab_apply _ broadcasts_S1x128_S8192x128 p q).trans ?_
    rw [shapeCast_self]

end Cert.KernelIdeal.Block

end
-- ==== Proof.KernelHost.lean ====
/-
  What the region finds in the two arrays the host prepares for it.

  Before the region the host builds the weight table: a hash index below zero is moved up by 4096, and `W` is gathered
  at the indices — a 128 × 129 table, row `q` holding the 128 weights of output `q` and, last, its bias. The gather is
  kept as it is printed: nothing below looks inside it. The region's weights array is the table's first 128 columns;
  its bias array is column 128 laid as a row. Read at an entry: weights `(q, k)` is table `(q, k)`, bias `(0, q)` is
  table `(q, 128)`.
-/
import proofs.«117994_j39487929319938_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

/-- The weight table: `W` gathered at the hash indices, an index below zero first moved up by 4096. -/
def table (W : (⟨S4096, .f32⟩ : BufTy).Contents (Elt Ideal)) (idx : (⟨S128x129, .i32⟩ : BufTy).Contents (Elt Ideal)) :
    S128x129.Idx → EReal :=
  Host.gather gather_S4096_S128x129x1_S128x129_n_0_n_n_0_2_1 W
    (broadcastInDim S128x129x1 ![0, 1] bcast_S128x129_S128x129x1_0_1
      (select (cmpi .slt idx (broadcastInDim S128x129 ![] bcast_S_S128x129 (constantI S_ 32 0#32)))
        (addi idx (broadcastInDim S128x129 ![] bcast_S_S128x129 (constantI S_ 32 4096#32))) idx))

variable (m : (ℓ : Loc nD τ sig) → Buf (Elt Ideal) ℓ)

/-- The weights array as the region finds it: the table's first 128 columns. -/
theorem weights_eq (c : Dev nD) :
    (V m c main_v7 : S128x128.Idx → EReal)
      = extractStridedSlice S128x128 ![0, 0]
          (table (m ((c : Thread nD τ).loc main_arg1)) (m ((c : Thread nD τ).loc main_arg2))) slices_S128x129_S128x128_0_0 := by
  dsimp only [V, hostOps0]; after_results; rfl

/-- The bias array as the region finds it: the table's column 128, transposed into a row. -/
theorem bias_eq (c : Dev nD) :
    (V m c main_v9 : S1x128.Idx → EReal)
      = transpose S1x128 [1, 0]
          (extractStridedSlice S128x1 ![0, 128]
            (table (m ((c : Thread nD τ).loc main_arg1)) (m ((c : Thread nD τ).loc main_arg2))) slices_S128x129_S128x1_0_128)
          transposes_S128x1_S1x128_1_0 := by
  dsimp only [V, hostOps0]; after_results; rfl

/-- Weights `(q, k)` is the table at `(q, k)`: the coordinates are given as numbers, for an index that arrives as a block's
    embedding. -/
theorem weights_at (c : Dev nD) (y : S128x128.Idx) (z : S128x129.Idx)
    (h0 : (z 0).val = (y 0).val) (h1 : (z 1).val = (y 1).val) :
    (V m c main_v7 : S128x128.Idx → EReal) y
      = table (m ((c : Thread nD τ).loc main_arg1)) (m ((c : Thread nD τ).loc main_arg2)) z := by
  rw [weights_eq]
  refine extractStridedSlice_apply _ _ _ y z fun a => ?_
  match a with
  | ⟨0, _⟩ => show (z 0).val = 0 + (y 0).val; omega
  | ⟨1, _⟩ => show (z 1).val = 0 + (y 1).val; omega

/-- Bias `(0, q)` is the table at `(q, 128)`. -/
theorem bias_at (c : Dev nD) (y : S1x128.Idx) (z : S128x129.Idx)
    (h0 : (z 0).val = (y 1).val) (h1 : (z 1).val = 128) :
    (V m c main_v9 : S1x128.Idx → EReal) y
      = table (m ((c : Thread nD τ).loc main_arg1)) (m ((c : Thread nD τ).loc main_arg2)) z := by
  rw [bias_eq]
  have hy0 : (y 0).val < 1 := (y 0).isLt
  have hy1 : (y 1).val < 128 := (y 1).isLt
  refine (transpose_apply [1, 0] _ transposes_S128x1_S1x128_1_0 y
    (ix2 (⟨(y 1).val, hy1⟩ : Fin 128) (⟨(y 0).val, hy0⟩ : Fin 1)) fun b => ?_).trans ?_
  · match b with
    | ⟨0, _⟩ => rfl
    | ⟨1, _⟩ => rfl
  · refine extractStridedSlice_apply _ _ _ _ z fun a => ?_
    match a with
    | ⟨0, _⟩ => show (z 0).val = 0 + (y 1).val; omega
    | ⟨1, _⟩ => show (z 1).val = 128 + (y 0).val; omega

end Cert.KernelIdeal.Entry

end
-- ==== Proof.KernelValue.lean ====
/-
  The kernel's result array as one function of its three arguments.

  The grid has 32 points; point `t` takes rows `8192·t … 8192·t + 8191` of the activations and writes the same rows of the
  result, while the weights and the bias row are the same whole arrays at every point. An entry `(p, q)` of the block
  written at `t` is `(∑ k, x p k · w q k) + b 0 q` of the blocks the body loads; with the activations' block read at row
  `8192·t + p` of the argument, the weights at table `(q, k)` and the bias at table `(q, 128)`, that is the layer's entry
  `(8192·t + p, q)`. Row `r` lies in the block of point `r / 8192`, so the 32 blocks cover the array and it ends as the
  layer of the arguments.
-/
import proofs.«117994_j39487929319938_1_alg».proof.Proof.Gen.KernelIdeal.Value
import proofs.«117994_j39487929319938_1_alg».proof.Proof.HashedLayer
import proofs.«117994_j39487929319938_1_alg».proof.Proof.KernelBlock
import proofs.«117994_j39487929319938_1_alg».proof.Proof.KernelHost

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.HashedLayer

variable (m : (ℓ : Loc nD τ sig) → Buf (Elt Ideal) ℓ) (ρ : Dev nD → PrngReg)

/-- The result: the layer of the activations and of the table gathered from `W` at the hash indices. -/
def result (c : Dev nD) : S262144x128.Idx → EReal :=
  layer (rows := 262144) (m ((c : Thread nD τ).loc main_arg0))
    (Entry.table (m ((c : Thread nD τ).loc main_arg1)) (m ((c : Thread nD τ).loc main_arg2)))

/-! ## One entry of one block -/

/-- An entry of the stored block is the layer's entry at the array index it lands on, given where the three loaded
    blocks' entries come from. -/
theorem block_entry (x : Vec Ideal S8192x128 .f32) (w : Vec Ideal S128x128 .f32) (b : Vec Ideal S1x128 .f32)
    (a : S262144x128.Idx → EReal) (tbl : S128x129.Idx → EReal) (i : S262144x128.Idx) (p : Fin 8192) (q : Fin 128)
    (hx : ∀ k : Fin 128, x (ix2 p k) = a (ix2 (i 0) k))
    (hw : ∀ k : Fin 128, w (ix2 q k) = tbl (ix2 (i 1) k.castSucc))
    (hb : b (ix2 (0 : Fin 1) q) = tbl (ix2 (i 1) (Fin.last 128))) :
    k0_pay1 (F := Ideal) x w b (ix2 p q) = layer (rows := 262144) a tbl i := by
  rw [Block.payload_apply]
  show _ = (∑ k : Fin 128, a (ix2 (i 0) k) * tbl (ix2 (i 1) k.castSucc)) + tbl (ix2 (i 1) (Fin.last 128))
  rw [hb]
  exact congrArg (· + tbl (ix2 (i 1) (Fin.last 128))) (Finset.sum_congr rfl fun k _ => by rw [hx k, hw k])

/-! ## The index maps over the grid -/

theorem origin : (![0, 0] : Fin 2 → Nat) = fun _ => 0 := funext fun a => by fin_cases a <;> rfl

/-- The activations and the result move one block of rows per point; the weights and the bias stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem index_onto : ∀ r : Fin 32, ∃ t : Fin cfg0.N, win0_3.index t = ![r.val, 0] :=
  (by decide +kernel : ∀ r : Fin 32, ∃ t : Fin grid0.N, win0_3.index t = ![r.val, 0])

/-! ## What a point writes back -/

/-- Point `t` writes back block `t` of the result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S8192x128) origin, View.ld_unit_zero (S := S128x128) origin,
    View.ld_unit_zero (S := S1x128) origin]
  obtain ⟨e00, e01, e10, e11, e20, e21, e30, e31⟩ := index_facts t
  funext j
  obtain ⟨p, q, rfl⟩ : ∃ (p : Fin 8192) (q : Fin 128), j = ix2 p q := ⟨j 0, j 1, eq_ix2 j⟩
  have hp : p.val < 8192 := p.isLt
  have hq : q.val < 128 := q.isLt
  refine block_entry (iblk m c 0 t) (iblk m c 1 t) (iblk m c 2 t) _ _ (((cfg0.win 3).blk t).view.emb (ix2 p q)) p q
    ?_ ?_ ?_
  · intro k
    show V m c main_arg0 (((cfg0.win 0).blk t).view.emb (ix2 p k)) = _
    rw [V_main_arg0]
    refine congrArg _ (funext fun a => Fin.ext ?_)
    match a with
    | ⟨0, _⟩ =>
      show win0_0.index t (0 : Fin 2) * 8192 + 1 * p.val = win0_3.index t (0 : Fin 2) * 8192 + 1 * p.val
      omega
    | ⟨1, _⟩ =>
      show win0_0.index t (1 : Fin 2) * 128 + 1 * k.val = k.val
      omega
  · intro k
    refine Entry.weights_at m c _ _ ?_ ?_
    · show win0_3.index t (1 : Fin 2) * 128 + 1 * q.val = win0_1.index t (0 : Fin 2) * 128 + 1 * q.val
      omega
    · show k.val = win0_1.index t (1 : Fin 2) * 128 + 1 * k.val
      omega
  · refine Entry.bias_at m c _ _ ?_ ?_
    · show win0_3.index t (1 : Fin 2) * 128 + 1 * q.val = win0_2.index t (1 : Fin 2) * 128 + 1 * q.val
      omega
    · rfl

/-! ## The blocks cover the array -/

/-- An index is in point `t`'s block iff each coordinate is in the block's range on its axis. -/
theorem mem_block (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v10).slice (win0_3.rect t)).set ↔ _
  rw [View.set_slice_whole, Rect.mem_set_unit]
  exact Iff.rfl

/-- Row `r` lies in the block of point `r / 8192`. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  obtain ⟨t, ht⟩ := index_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 128 ≤ (i 1).val ∧ (i 1).val < win0_3.index t (1 : Fin 2) * 128 + 128
    omega

/-! ## The array after the run, and the run -/

/-- The result array ends as the layer of the arguments. -/
theorem final (c : Dev nD) : (dats m 0 c).arrAt 3 cfg0.N = result m c :=
  (dats m 0 c).arrAt_eq_of_cover 3 (result m c) (fun t _ => flushed_eq m c t) covered

/-- Every weakly fair execution ends with the result array at the layer of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Reference.lean ====
/-
  The reference's result as the same function of the arguments.

  The reference appends a column of ones to the activations (262144 × 129), gathers the same weight table (128 × 129) and
  contracts the 129 columns of both: entry `(p, q)` is `∑ k < 129, a' p k · table q k`, where `a' p k` is the activation for
  `k < 128` and the word `0x3F800000`, that is `1`, for `k = 128`. Splitting the last term off the sum makes it the layer's
  entry (`HashedLayer.sum_extended`): the sum over the first 128 columns plus the bias `table q 128`.
-/
import proofs.«117994_j39487929319938_1_alg».proof.Proof.Gen.ReferenceIdeal.Read
import proofs.«117994_j39487929319938_1_alg».proof.Proof.HashedLayer
import Idealize.ShloMosaic.Lib.Pipeline.Value
import Idealize.ShloMosaic.Lib.ValueIdx

noncomputable section

namespace Cert.ReferenceIdeal.Whole

open Cert.ReferenceIdeal Cert.ReferenceIdeal.Gen Cert.ReferenceIdeal.Read Idealize.ShloMosaic
open Idealize.ShloMosaic.ValueIdx Cert.HashedLayer

/-- The word `0x3F800000` is the number one: sign 0, exponent 127, fraction 0, so `2²³ · 2⁻²³`. -/
theorem one_word : Ideal.ofBits .f32 0x3F800000#32 = 1 := by
  simp [Ideal.ofBits, Ideal.ieee]
  rw [← EReal.coe_mul]
  norm_num

/-- The extended activations in one of the first 128 columns: the activation itself. -/
theorem extended_left (x0 : (⟨S262144x128, .f32⟩ : BufTy).Contents (Elt Ideal)) (i : S262144x128.Idx) (k : Fin 128) :
    val_main_v1 (F := Ideal) x0 (lidx_main_v9 i k.castSucc) = x0 (ix2 (i 0) k) := by
  unfold val_main_v1
  refine concatenate_pair_apply_left (t := S262144x129) (s₁ := S262144x128) (s₂ := S262144x1) (1 : Fin 2) x0
    (val_main_v0 (F := Ideal)) concatenates_S262144x128_S262144x1_S262144x129_d1 (lidx_main_v9 i k.castSucc) rfl
    (ix2 (i 0) k) fun b => ?_
  match b with
  | ⟨0, _⟩ => rfl
  | ⟨1, _⟩ => rfl

/-- The extended activations in column 128: the appended one. -/
theorem extended_last (x0 : (⟨S262144x128, .f32⟩ : BufTy).Contents (Elt Ideal)) (i : S262144x128.Idx) :
    val_main_v1 (F := Ideal) x0 (lidx_main_v9 i (Fin.last 128)) = 1 := by
  unfold val_main_v1
  refine (concatenate_pair_apply_right (t := S262144x129) (s₁ := S262144x128) (s₂ := S262144x1) (1 : Fin 2) x0
    (val_main_v0 (F := Ideal)) concatenates_S262144x128_S262144x1_S262144x129_d1 (lidx_main_v9 i (Fin.last 128)) rfl rfl
    (ix2 (i 0) (0 : Fin 1)) (fun b hb => ?_) ?_).trans ?_
  · match b with
    | ⟨0, _⟩ => rfl
    | ⟨1, _⟩ => exact absurd rfl hb
  · rfl
  · rw [val_main_v0_apply, val_main_cst_apply]
    exact one_word

/-- The reference's result is the layer of the activations and of the table it gathers. -/
theorem result_eq (x0 : (⟨S262144x128, .f32⟩ : BufTy).Contents (Elt Ideal))
    (x1 : (⟨S4096, .f32⟩ : BufTy).Contents (Elt Ideal)) (x2 : (⟨S128x129, .i32⟩ : BufTy).Contents (Elt Ideal)) :
    val_main_v9 (F := Ideal) x0 x1 x2 = layer (rows := 262144) x0 (val_main_v8 (F := Ideal) x1 x2) := by
  funext i
  rw [val_main_v9_apply]
  have hr : ∀ k : Fin 129, ridx_main_v9 i k = ix2 (i 1) k := fun k => funext fun a => by
    match a with
    | ⟨0, _⟩ => rfl
    | ⟨1, _⟩ => rfl
  simp only [hr]
  exact sum_extended (fun k => val_main_v1 (F := Ideal) x0 (lidx_main_v9 i k)) (fun k => x0 (ix2 (i 0) k))
    (fun k => val_main_v8 (F := Ideal) x1 x2 (ix2 (i 1) k)) (extended_left x0 i) (extended_last x0 i)

end Cert.ReferenceIdeal.Whole

end
-- ==== Proof.lean ====
/-
  The hashed layer: a kernel that multiplies each block of 8192 rows of activations by the gathered weights and adds
  the gathered bias row, against a reference that appends a column of ones to the activations and contracts all 129
  columns of the gathered table.

  Both programs build the same 128 × 129 table on the host, `W` gathered at the hash indices (an index below zero first
  moved up by 4096); the gather is the same operation of the same operands on both sides and is never opened. With
  `table q k` its entries, the kernel's result at `(p, q)` is `(∑ k < 128, a p k · table q k) + table q 128` and the
  reference's is `∑ k < 129, a' p k · table q k` with `a' p 128 = 1`: equal by splitting off the last term and
  `1 · x = x`, which hold at every extended real, so the precondition is not used.

  The three frames are the generated ones (the reference's is its generated run with the result dropped), and the
  idealization rewrote no operation.
-/
import proofs.«117994_j39487929319938_1_alg».proof.Defs
import proofs.«117994_j39487929319938_1_alg».proof.Proof.Gen.Kernel
import proofs.«117994_j39487929319938_1_alg».proof.Proof.Gen.Kernel.Skeleton
import proofs.«117994_j39487929319938_1_alg».proof.Proof.Gen.Kernel.Launch
import proofs.«117994_j39487929319938_1_alg».proof.Proof.Gen.Kernel.Points
import proofs.«117994_j39487929319938_1_alg».proof.Proof.Gen.Kernel.Frame
import proofs.«117994_j39487929319938_1_alg».proof.Proof.Gen.KernelIdeal
import proofs.«117994_j39487929319938_1_alg».proof.Proof.Gen.KernelIdeal.Skeleton
import proofs.«117994_j39487929319938_1_alg».proof.Proof.Gen.KernelIdeal.Launch
import proofs.«117994_j39487929319938_1_alg».proof.Proof.Gen.KernelIdeal.Points
import proofs.«117994_j39487929319938_1_alg».proof.Proof.Gen.KernelIdeal.Frame
import proofs.«117994_j39487929319938_1_alg».proof.Proof.Gen.ReferenceIdeal
import proofs.«117994_j39487929319938_1_alg».proof.Proof.Gen.Pre_finite_inputs
import proofs.«117994_j39487929319938_1_alg».proof.Proof.Gen.KernelIdeal.Value
import proofs.«117994_j39487929319938_1_alg».proof.Proof.Gen.ReferenceIdeal.Run
import proofs.«117994_j39487929319938_1_alg».proof.Proof.Gen.ReferenceIdeal.Read
import proofs.«117994_j39487929319938_1_alg».proof.Proof.KernelValue
import proofs.«117994_j39487929319938_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments the kernel's result array ends as the layer of the arguments
    (`KernelIdeal.Whole.run`) and the reference's as the layer of its own (`ReferenceIdeal.Whole.result_eq`), with the
    same table on both sides. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Whole.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
